-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S2000x128 : Shape := ⟨2, ![2000, 128]⟩
abbrev S2000x1 : Shape := ⟨2, ![2000, 1]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 44
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S50000x1, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .f32⟩
  | .hbm, ⟨39, _⟩ => ⟨S50000x128, .f32⟩
  | .hbm, ⟨40, _⟩ => ⟨S600000x1, .i32⟩
  | .hbm, ⟨41, _⟩ => ⟨S50000x128, .f32⟩
  | .hbm, ⟨42, _⟩ => ⟨S1x64, .f32⟩
  | .hbm, ⟨43, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S128x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .f32⟩
  | .hbm, ⟨23, _⟩ => ⟨S50000x128, .f32⟩
  | .hbm, ⟨24, _⟩ => ⟨S600000x1, .i32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S_, .f32⟩
  | .hbm, ⟨50, _⟩ => ⟨S50000x128, .f32⟩
  | .hbm, ⟨51, _⟩ => ⟨S600000x1, .i32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The run of the idealized kernel's whole program, with its result array named.

  The program is two launches of the fused layer among three stretches of host operations. Along the run the
  buffer contents at the four boundaries are a fold from the launch memory: after the first stretch (`W1`), after the
  first launch (`W2`: the launch's arrays at what its write-backs leave, every other buffer as entered), after the
  second stretch (`W3`) and after the second launch (`W4`). Every weakly fair execution terminates without a fault
  in a state whose unscoped buffers hold `W4`; read at the result buffer that is the second launch's output array
  after its last grid point, and read at an argument it is the launch contents.
-/
import proofs.«174957_j34333968564343_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer after the run is the second launch's output array after its last grid point. -/
theorem W4_result (c : Dev nD) :
    W4 m ρ c (Proc.devRef .tc main_v28) = (dat1 (V3 m ρ) c).arrAt 5 cfg1.N :=
  W4_arr m ρ c 5

set_option backward.isDefEq.respectTransparency.types false in
/-- Every weakly fair execution of the program terminates, nothing faulting, with the result buffer at the second
    launch's output array and the seven arguments as launched. -/
theorem run : θ_run defs (onTc (τ := τ) (main (F := F))) ⟨m, fun _ => 0, ρ⟩ (fun r => ∀ c : Dev nD,
      r.2.mem ((c.tc : Thread nD τ).loc main_v28) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v28 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.KRun

end
-- ==== Proof.Spec.lean ====
/-
  The fused graph layer, entry by entry, on the extended reals.

  For a node `r` with features `h r`, summed messages `msg r` from its in-neighbours and in-degree `deg r`, the layer's
  entry `(r, j)` is

      Σ_k ((msg (r, k) + h (r, k)) / (deg r + 1)) · w (k, j) + b j,

  the contraction running over the 128 input features, the quotient the extended reals' division. The hidden layer
  clamps that from below at zero. The two float words `1.0` and `0.0` stay as the values their patterns denote: both
  programs spell the same words, so neither is ever evaluated.

  The degree arrives as a one-column matrix and the bias as a one-row matrix, as the kernel stages them.
-/
import Idealize.ShloMosaic.Lib.ValueIdx
import Idealize.ShloMosaic.PureOps.Ideal

noncomputable section

open scoped BigOperators

namespace Cert.Layer

open Idealize.ShloMosaic Idealize.ShloMosaic.ValueIdx

/-- An `a × b` matrix of extended reals. -/
abbrev Mat (a b : Nat) := (⟨2, ![a, b]⟩ : Shape).Idx → EReal

/-- The value the float word of `1.0` denotes. -/
abbrev oneW : EReal := Ideal.ofBits .f32 0x3F800000#32
/-- The value the float word of `0.0` denotes. -/
abbrev zeroW : EReal := Ideal.ofBits .f32 0x00000000#32

/-- The row of a matrix index, as a number below the row count. -/
abbrev row {a b : Nat} (i : (⟨2, ![a, b]⟩ : Shape).Idx) : Fin a := ⟨(i 0).val, (i 0).isLt⟩
/-- The column of a matrix index, as a number below the column count. -/
abbrev col {a b : Nat} (i : (⟨2, ![a, b]⟩ : Shape).Idx) : Fin b := ⟨(i 1).val, (i 1).isLt⟩

/-- One entry of a layer from a node's own features, its summed messages, its degree, a weight column and a bias. -/
def cell (hr mr : Fin 128 → EReal) (d : EReal) (wc : Fin 128 → EReal) (b : EReal) : EReal :=
  (∑ k : Fin 128, Ideal.div (mr k + hr k) (d + oneW) * wc k) + b

/-- A layer with `D` output features, before any clamp: entry `(r, j)` from row `r` of the features and of the
    messages, the degree of `r`, column `j` of the weights and entry `j` of the bias. -/
def affine {D : Nat} (h msg : Mat 50000 128) (deg : Mat 50000 1) (w : Mat 128 D) (b : Mat 1 D) : Mat 50000 D :=
  fun i => cell (fun k => h (ix2 (row i) k)) (fun k => msg (ix2 (row i) k)) (deg (ix2 (row i) 0))
    (fun k => w (ix2 k (col i))) (b (ix2 0 (col i)))

/-- The hidden layer: the affine layer clamped from below at zero. -/
def hidden (h msg : Mat 50000 128) (deg : Mat 50000 1) (w : Mat 128 128) (b : Mat 1 128) : Mat 50000 128 :=
  fun i => max (affine h msg deg w b i) zeroW

theorem affine_ix2 {D : Nat} (h msg : Mat 50000 128) (deg : Mat 50000 1) (w : Mat 128 D) (b : Mat 1 D)
    (r : Fin 50000) (j : Fin D) :
    affine h msg deg w b (ix2 r j) = cell (fun k => h (ix2 r k)) (fun k => msg (ix2 r k)) (deg (ix2 r 0))
      (fun k => w (ix2 k j)) (b (ix2 0 j)) := rfl

theorem hidden_ix2 (h msg : Mat 50000 128) (deg : Mat 50000 1) (w : Mat 128 128) (b : Mat 1 128)
    (r : Fin 50000) (j : Fin 128) :
    hidden h msg deg w b (ix2 r j) = max (cell (fun k => h (ix2 r k)) (fun k => msg (ix2 r k)) (deg (ix2 r 0))
      (fun k => w (ix2 k j)) (b (ix2 0 j))) zeroW := rfl

end Cert.Layer

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.Body0.lean ====
/-
  The first launch's body at one entry of its block.

  On a block of 2000 nodes the body loads the degrees `d` (one column), the summed messages `msg`, the node features
  `x`, the weights `w` and the bias row `b`, and stores

      max (((msg + x) / (d + 1)) · w + b) 0.

  Read at entry `(p, q)` of the block on the extended reals, where rounding to the narrower float format changes
  nothing and the matrix unit's product into a zero accumulator is the plain sum over the 128 contracted features, that
  is the layer's cell of row `p` of `x` and `msg`, the degree of `p`, column `q` of `w` and entry `q` of `b`, clamped at zero.
-/
import proofs.«174957_j34333968564343_1_alg».proof.Proof.Gen.KernelIdeal.Skeleton
import proofs.«174957_j34333968564343_1_alg».proof.Proof.Spec
import proofs.«174957_j34333968564343_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body0

open Cert.KernelIdeal Cert.KernelIdeal.Gen Cert.Layer
open Idealize.ShloMosaic Idealize.ShloMosaic.ValueIdx

/-- Row `p` of the left factor: the contraction index sits on axis 1. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- Column `q` of the right factor: the contraction index sits on axis 0. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The matrix unit's product of a 2000 × 128 and a 128 × 128 matrix into a zero accumulator, at `(p, q)`: the sum over
    `k` of `l (p, k) · r (k, q)`. -/
theorem product_apply {φ₁ φ₂ : FTy} (l : FVec Ideal S2000x128 φ₁) (r : FVec Ideal S128x128 φ₂) (p : Fin 2000) (q : Fin 128) :
    FloatOps.matmul dot_S2000x128_S128x128_S2000x128_1_0_0_1_n_n none l r (constant S2000x128 .f32 0x00000000#32) (ix2 p q)
      = ∑ k : Fin 128, l (ix2 p k) * r (ix2 k q) := by
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact rhs_col _ _)
  rw [el, er]

/-- The body's stored value at entry `(p, q)` of the block. -/
theorem stored_apply (d : Vec Ideal S2000x1 .f32) (msg x : Vec Ideal S2000x128 .f32) (w : Vec Ideal S128x128 .f32)
    (b : Vec Ideal S1x128 .f32) (p : Fin 2000) (q : Fin 128) :
    k0_pay1 (F := Ideal) d msg x w b (ix2 p q)
      = max (cell (fun k => x (ix2 p k)) (fun k => msg (ix2 p k)) (d (ix2 p 0)) (fun k => w (ix2 k q)) (b (ix2 0 q))) zeroW := by
  unfold k0_pay1
  simp only [shapeCast_self]
  refine congrArg (fun z => max z zeroW) ?_
  refine congrArg₂ (· + ·) ?_ ?_
  · refine (product_apply _ _ p q).trans ?_
    refine Finset.sum_congr rfl fun k _ => ?_
    refine congrArg (· * w (ix2 k q)) ?_
    exact congrArg (fun z => Ideal.div (msg (ix2 p k) + x (ix2 p k)) z)
      (Cert.LibColumns.broadcastTo_col
        (addf (F := Ideal) d (broadcast S2000x1 (Scalar.ofBits (F := Ideal) .f32 0x3F800000#32)))
        broadcasts_S2000x1_S2000x128 p k)
  · exact broadcastTo_1b_ab_apply b broadcasts_S1x128_S2000x128 p q

end Cert.KernelIdeal.Body0

end
-- ==== Proof.Blocks0.lean ====
/-
  The first launch's output array, as one function of the arrays the launch is entered with.

  The launch walks 25 grid points; point `t` stages rows `2000·t … 2000·t + 1999` of the features, of the summed
  messages and of the degree column, the whole weight matrix and the whole bias row, and writes back the same rows of
  the output. So what point `t` writes back is block `t` of the hidden layer of the whole arrays: an entry of the block
  depends only on its own row of the three row-blocked arrays, and that row sits at the same place in each block. The
  25 blocks tile the 50000 rows (row `r` lies in block `r / 2000`), so the output array after the last point is the
  hidden layer everywhere. The contents `V` the launch is entered with stay a parameter.
-/
import proofs.«174957_j34333968564343_1_alg».proof.Proof.Gen.KernelIdeal.Frame
import proofs.«174957_j34333968564343_1_alg».proof.Proof.Body0
import Idealize.ShloMosaic.Lib.Pipeline.Value

set_option maxRecDepth 16384

noncomputable section

namespace Cert.KernelIdeal.Blocks0

open Cert.KernelIdeal Cert.KernelIdeal.Gen Cert.Layer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows (features, messages, degrees, output) sit at block row
    `t`, column block 0; the weights and the bias are the one block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One entry of what a point stores, against the hidden layer of whole arrays: the point's blocks are rows
    `2000·T + p` of the row-blocked arrays and the whole of the other two, and the entry `j` of the block is entry
    `i` of the array, `i` in row `2000·T + (row of j)` and in `j`'s column. -/
theorem entry (X MSG : Mat 50000 128) (DEG : Mat 50000 1) (W : Mat 128 128) (B : Mat 1 128)
    (x0 x1 : Vec Ideal S2000x128 .f32) (x2 : Vec Ideal S2000x1 .f32) (x3 : Vec Ideal S128x128 .f32)
    (x4 : Vec Ideal S1x128 .f32) (T : Nat) (j : S2000x128.Idx) (i : S50000x128.Idx)
    (hi0 : (i 0).val = T * 2000 + (j 0).val) (hi1 : (i 1).val = (j 1).val)
    (h0 : ∀ (y : S2000x128.Idx) (z : S50000x128.Idx), (z 0).val = T * 2000 + (y 0).val → (z 1).val = (y 1).val → x0 y = X z)
    (h1 : ∀ (y : S2000x128.Idx) (z : S50000x128.Idx), (z 0).val = T * 2000 + (y 0).val → (z 1).val = (y 1).val → x1 y = MSG z)
    (h2 : ∀ (y : S2000x1.Idx) (z : S50000x1.Idx), (z 0).val = T * 2000 + (y 0).val → x2 y = DEG z)
    (h3 : x3 = W) (h4 : x4 = B) :
    k0_pay1 (F := Ideal) x2 x1 x0 x3 x4 j = hidden X MSG DEG W B i := by
  subst h3 h4
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = T * 2000 + p.val := hi0
  have hs : s = q := Fin.ext hi1
  subst hs
  rw [Body0.stored_apply, hidden_ix2]
  have e0 : (fun k : Fin 128 => x0 (ix2 p k)) = fun k => X (ix2 r k) := funext fun k => h0 _ _ hr rfl
  have e1 : (fun k : Fin 128 => x1 (ix2 p k)) = fun k => MSG (ix2 r k) := funext fun k => h1 _ _ hr rfl
  have e2 : x2 (ix2 p 0) = DEG (ix2 r 0) := h2 _ _ hr
  rw [e0, e1, e2]

/-- WHAT POINT `t` WRITES BACK is block `t` of the hidden layer of the arrays as the launch finds them. -/
theorem flushed_eq (c : Dev nD) (t : Fin cfg0.N) :
    (dat0 V c).flushed 5 t = ((cfg0.win 5).blk t).view.read (Elt Ideal)
      (hidden (V c main_arg0) (V c main_v14) (V c main_v4) (V c main_arg3) (V c main_v15)) := by
  show (cfg0.win 5).cut (grid0.coords t) ((dat0 V c).after 5 t) = _
  rw [after0_5]
  unfold out0_5
  rw [View.canon_unit_zero origin]
  simp only [View.ld_unit_zero (S := S2000x128) origin, View.ld_unit_zero (S := S2000x1) origin,
    View.ld_unit_zero (S := S128x128) origin, View.ld_unit_zero (S := S1x128) origin]
  obtain ⟨a00, a01, a10, a11, a20, a21, a30, a31, a40, a41, a50, a51⟩ := index_maps t
  funext j
  show k0_pay1 (F := Ideal) (iblk0 V c 2 t) (iblk0 V c 1 t) (iblk0 V c 0 t) (iblk0 V c 3 t) (iblk0 V c 4 t) j
    = hidden (V c main_arg0) (V c main_v14) (V c main_v4) (V c main_arg3) (V c main_v15) (((cfg0.win 5).blk t).view.emb j)
  have hj0 : (j 0).val < 2000 := (j 0).isLt
  have hj1 : (j 1).val < 128 := (j 1).isLt
  refine entry (V c main_arg0) (V c main_v14) (V c main_v4) (V c main_arg3) (V c main_v15)
    (iblk0 V c 0 t) (iblk0 V c 1 t) (iblk0 V c 2 t) (iblk0 V c 3 t) (iblk0 V c 4 t) t.val j
    (((cfg0.win 5).blk t).view.emb j) ?_ ?_ ?_ ?_ ?_ ?_ ?_
  · show win0_5.index t (0 : Fin 2) * 2000 + 1 * (j 0).val = t.val * 2000 + (j 0).val; omega
  · show win0_5.index t (1 : Fin 2) * 128 + 1 * (j 1).val = (j 1).val; omega
  · intro y z hz0 hz1
    show V c main_arg0 (((cfg0.win 0).blk t).view.emb y) = V c main_arg0 z
    refine congrArg _ (funext fun a => Fin.ext ?_)
    match a with
    | ⟨0, _⟩ => show win0_0.index t (0 : Fin 2) * 2000 + 1 * (y 0).val = (z 0).val; omega
    | ⟨1, _⟩ => show win0_0.index t (1 : Fin 2) * 128 + 1 * (y 1).val = (z 1).val; omega
  · intro y z hz0 hz1
    show V c main_v14 (((cfg0.win 1).blk t).view.emb y) = V c main_v14 z
    refine congrArg _ (funext fun a => Fin.ext ?_)
    match a with
    | ⟨0, _⟩ => show win0_1.index t (0 : Fin 2) * 2000 + 1 * (y 0).val = (z 0).val; omega
    | ⟨1, _⟩ => show win0_1.index t (1 : Fin 2) * 128 + 1 * (y 1).val = (z 1).val; omega
  · intro y z hz0
    show V c main_v4 (((cfg0.win 2).blk t).view.emb y) = V c main_v4 z
    refine congrArg _ (funext fun a => Fin.ext ?_)
    match a with
    | ⟨0, _⟩ => show win0_2.index t (0 : Fin 2) * 2000 + 1 * (y 0).val = (z 0).val; omega
    | ⟨1, _⟩ =>
      show win0_2.index t (1 : Fin 2) * 1 + 1 * (y 1).val = (z 1).val
      have hy : (y 1).val < 1 := (y 1).isLt
      have hz : (z 1).val < 1 := (z 1).isLt
      omega
  · funext y
    show V c main_arg3 (((cfg0.win 3).blk t).view.emb y) = V c main_arg3 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v15 (((cfg0.win 4).blk t).view.emb y) = V c main_v15 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega

/-- An index of the output array is in point `t`'s block iff each coordinate is in the block's range on its axis. -/
theorem mem_block (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v16).slice (win0_5.rect t)).set ↔ _
  rw [View.set_slice_whole, Rect.mem_set_unit]
  exact Iff.rfl

/-- Every index of the output array lies in the block of the point `row / 2000`. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨a00, a01, a10, a11, a20, a21, a30, a31, a40, a41, a50, a51⟩ := index_maps t
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- THE OUTPUT ARRAY after the last point is the hidden layer of the arrays the launch was entered with. -/
theorem final (c : Dev nD) :
    (dat0 V c).arrAt 5 cfg0.N = hidden (V c main_arg0) (V c main_v14) (V c main_v4) (V c main_arg3) (V c main_v15) :=
  (dat0 V c).arrAt_eq_of_cover 5 _ (fun t _ => flushed_eq V c t) covered

end Cert.KernelIdeal.Blocks0

end
-- ==== Proof.Body1.lean ====
/-
  The second launch's body at one entry of its block.

  On a block of 2000 nodes the body loads the degrees `d` (one column), the summed messages `msg`, the hidden features
  `x`, the 128 × 64 weights `w` and the bias row `b`, and stores

      ((msg + x) / (d + 1)) · w + b

  with no clamp. Read at entry `(p, q)` of the block on the extended reals — rounding to the narrower float format
  changes nothing, the matrix unit's product into a zero accumulator is the plain sum over the 128 contracted features —
  that is the layer's cell of row `p` of `x` and `msg`, the degree of `p`, column `q` of `w` and entry `q` of `b`.
-/
import proofs.«174957_j34333968564343_1_alg».proof.Proof.Gen.KernelIdeal.Skeleton
import proofs.«174957_j34333968564343_1_alg».proof.Proof.Spec
import proofs.«174957_j34333968564343_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body1

open Cert.KernelIdeal Cert.KernelIdeal.Gen Cert.Layer
open Idealize.ShloMosaic Idealize.ShloMosaic.ValueIdx

/-- Row `p` of the left factor: the contraction index sits on axis 1. -/
theorem lhs_row (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

/-- Column `q` of the right factor: the contraction index sits on axis 0. -/
theorem rhs_col (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The matrix unit's product of a 2000 × 128 and a 128 × 64 matrix into a zero accumulator, at `(p, q)`: the sum over
    `k` of `l (p, k) · r (k, q)`. -/
theorem product_apply {φ₁ φ₂ : FTy} (l : FVec Ideal S2000x128 φ₁) (r : FVec Ideal S128x64 φ₂) (p : Fin 2000) (q : Fin 64) :
    FloatOps.matmul dot_S2000x128_S128x64_S2000x64_1_0_0_1_n_n none l r (constant S2000x64 .f32 0x00000000#32) (ix2 p q)
      = ∑ k : Fin 128, l (ix2 p k) * r (ix2 k q) := by
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k :=
    funext fun a => Fin.ext (by
      match a with
      | ⟨0, _⟩ => exact lhs_row _ _
      | ⟨1, _⟩ => exact (dot_S2000x128_S128x64_S2000x64_1_0_0_1_n_n.lhsIdx_val_of_single rfl _ _).trans hk)
  have er : dot_S2000x128_S128x64_S2000x64_1_0_0_1_n_n.rhsIdx (ix2 p q)
      ((contrEquiv1 dot_S2000x128_S128x64_S2000x64_1_0_0_1_n_n 128 rfl rfl).symm k) = ix2 k q :=
    funext fun a => Fin.ext (by
      match a with
      | ⟨0, _⟩ => exact (dot_S2000x128_S128x64_S2000x64_1_0_0_1_n_n.rhsIdx_val_of_single rfl _ _).trans hk
      | ⟨1, _⟩ => exact rhs_col _ _)
  rw [el, er]

/-- The body's stored value at entry `(p, q)` of the block. -/
theorem stored_apply (d : Vec Ideal S2000x1 .f32) (msg x : Vec Ideal S2000x128 .f32) (w : Vec Ideal S128x64 .f32)
    (b : Vec Ideal S1x64 .f32) (p : Fin 2000) (q : Fin 64) :
    k1_pay1 (F := Ideal) d msg x w b (ix2 p q)
      = cell (fun k => x (ix2 p k)) (fun k => msg (ix2 p k)) (d (ix2 p 0)) (fun k => w (ix2 k q)) (b (ix2 0 q)) := by
  unfold k1_pay1
  simp only [shapeCast_self]
  refine congrArg₂ (· + ·) ?_ ?_
  · refine (product_apply _ _ p q).trans ?_
    refine Finset.sum_congr rfl fun k _ => ?_
    refine congrArg (· * w (ix2 k q)) ?_
    exact congrArg (fun z => Ideal.div (msg (ix2 p k) + x (ix2 p k)) z)
      (Cert.LibColumns.broadcastTo_col
        (addf (F := Ideal) d (broadcast S2000x1 (Scalar.ofBits (F := Ideal) .f32 0x3F800000#32)))
        broadcasts_S2000x1_S2000x128 p k)
  · exact broadcastTo_1b_ab_apply b broadcasts_S1x64_S2000x64 p q

end Cert.KernelIdeal.Body1

end
-- ==== Proof.Blocks1.lean ====
/-
  The second launch's output array, as one function of the arrays the launch is entered with.

  As in the first launch, point `t` of the 25 stages rows `2000·t … 2000·t + 1999` of the hidden features, of their
  summed messages and of the degree column, the whole 128 × 64 weight matrix and the whole bias row, and writes back the
  same rows of the 50000 × 64 output: block `t` of the affine layer of the whole arrays. The blocks tile the rows, so the
  output array after the last point is the affine layer everywhere. The contents `V` the launch is entered with stay a
  parameter.
-/
import proofs.«174957_j34333968564343_1_alg».proof.Proof.Gen.KernelIdeal.Frame
import proofs.«174957_j34333968564343_1_alg».proof.Proof.Body1
import Idealize.ShloMosaic.Lib.Pipeline.Value

set_option maxRecDepth 16384

noncomputable section

namespace Cert.KernelIdeal.Blocks1

open Cert.KernelIdeal Cert.KernelIdeal.Gen Cert.Layer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows (features, messages, degrees, output) sit at block row
    `t`, column block 0; the weights and the bias are the one block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of what a point stores, against the affine layer of whole arrays: the point's blocks are rows
    `2000·T + p` of the row-blocked arrays and the whole of the other two, and the entry `j` of the block is entry
    `i` of the array, `i` in row `2000·T + (row of j)` and in `j`'s column. -/
theorem entry (X MSG : Mat 50000 128) (DEG : Mat 50000 1) (W : Mat 128 64) (B : Mat 1 64)
    (x0 x1 : Vec Ideal S2000x128 .f32) (x2 : Vec Ideal S2000x1 .f32) (x3 : Vec Ideal S128x64 .f32)
    (x4 : Vec Ideal S1x64 .f32) (T : Nat) (j : S2000x64.Idx) (i : S50000x64.Idx)
    (hi0 : (i 0).val = T * 2000 + (j 0).val) (hi1 : (i 1).val = (j 1).val)
    (h0 : ∀ (y : S2000x128.Idx) (z : S50000x128.Idx), (z 0).val = T * 2000 + (y 0).val → (z 1).val = (y 1).val → x0 y = X z)
    (h1 : ∀ (y : S2000x128.Idx) (z : S50000x128.Idx), (z 0).val = T * 2000 + (y 0).val → (z 1).val = (y 1).val → x1 y = MSG z)
    (h2 : ∀ (y : S2000x1.Idx) (z : S50000x1.Idx), (z 0).val = T * 2000 + (y 0).val → x2 y = DEG z)
    (h3 : x3 = W) (h4 : x4 = B) :
    k1_pay1 (F := Ideal) x2 x1 x0 x3 x4 j = affine X MSG DEG W B i := by
  subst h3 h4
  obtain ⟨p, q, rfl⟩ : ∃ (p : Fin 2000) (q : Fin 64), j = ix2 p q := ⟨j 0, j 1, eq_ix2 j⟩
  obtain ⟨r, s, rfl⟩ : ∃ (r : Fin 50000) (s : Fin 64), i = ix2 r s := ⟨i 0, i 1, eq_ix2 i⟩
  have hr : r.val = T * 2000 + p.val := hi0
  have hs : s = q := Fin.ext hi1
  subst hs
  rw [Body1.stored_apply, affine_ix2]
  have e0 : (fun k : Fin 128 => x0 (ix2 p k)) = fun k => X (ix2 r k) := funext fun k => h0 _ _ hr rfl
  have e1 : (fun k : Fin 128 => x1 (ix2 p k)) = fun k => MSG (ix2 r k) := funext fun k => h1 _ _ hr rfl
  have e2 : x2 (ix2 p 0) = DEG (ix2 r 0) := h2 _ _ hr
  rw [e0, e1, e2]

/-- WHAT POINT `t` WRITES BACK is block `t` of the affine layer of the arrays as the launch finds them. -/
theorem flushed_eq (c : Dev nD) (t : Fin cfg1.N) :
    (dat1 V c).flushed 5 t = ((cfg1.win 5).blk t).view.read (Elt Ideal)
      (affine (V c main_v16) (V c main_v26) (V c main_v4) (V c main_arg5) (V c main_v27)) := by
  show (cfg1.win 5).cut (grid1.coords t) ((dat1 V c).after 5 t) = _
  rw [after1_5]
  unfold out1_5
  rw [View.canon_unit_zero origin]
  simp only [View.ld_unit_zero (S := S2000x128) origin, View.ld_unit_zero (S := S2000x1) origin,
    View.ld_unit_zero (S := S128x64) origin, View.ld_unit_zero (S := S1x64) origin]
  obtain ⟨a00, a01, a10, a11, a20, a21, a30, a31, a40, a41, a50, a51⟩ := index_maps t
  funext j
  show k1_pay1 (F := Ideal) (iblk1 V c 2 t) (iblk1 V c 1 t) (iblk1 V c 0 t) (iblk1 V c 3 t) (iblk1 V c 4 t) j
    = affine (V c main_v16) (V c main_v26) (V c main_v4) (V c main_arg5) (V c main_v27) (((cfg1.win 5).blk t).view.emb j)
  have hj0 : (j 0).val < 2000 := (j 0).isLt
  have hj1 : (j 1).val < 64 := (j 1).isLt
  refine entry (V c main_v16) (V c main_v26) (V c main_v4) (V c main_arg5) (V c main_v27)
    (iblk1 V c 0 t) (iblk1 V c 1 t) (iblk1 V c 2 t) (iblk1 V c 3 t) (iblk1 V c 4 t) t.val j
    (((cfg1.win 5).blk t).view.emb j) ?_ ?_ ?_ ?_ ?_ ?_ ?_
  · show win1_5.index t (0 : Fin 2) * 2000 + 1 * (j 0).val = t.val * 2000 + (j 0).val; omega
  · show win1_5.index t (1 : Fin 2) * 64 + 1 * (j 1).val = (j 1).val; omega
  · intro y z hz0 hz1
    show V c main_v16 (((cfg1.win 0).blk t).view.emb y) = V c main_v16 z
    refine congrArg _ (funext fun a => Fin.ext ?_)
    match a with
    | ⟨0, _⟩ => show win1_0.index t (0 : Fin 2) * 2000 + 1 * (y 0).val = (z 0).val; omega
    | ⟨1, _⟩ => show win1_0.index t (1 : Fin 2) * 128 + 1 * (y 1).val = (z 1).val; omega
  · intro y z hz0 hz1
    show V c main_v26 (((cfg1.win 1).blk t).view.emb y) = V c main_v26 z
    refine congrArg _ (funext fun a => Fin.ext ?_)
    match a with
    | ⟨0, _⟩ => show win1_1.index t (0 : Fin 2) * 2000 + 1 * (y 0).val = (z 0).val; omega
    | ⟨1, _⟩ => show win1_1.index t (1 : Fin 2) * 128 + 1 * (y 1).val = (z 1).val; omega
  · intro y z hz0
    show V c main_v4 (((cfg1.win 2).blk t).view.emb y) = V c main_v4 z
    refine congrArg _ (funext fun a => Fin.ext ?_)
    match a with
    | ⟨0, _⟩ => show win1_2.index t (0 : Fin 2) * 2000 + 1 * (y 0).val = (z 0).val; omega
    | ⟨1, _⟩ =>
      show win1_2.index t (1 : Fin 2) * 1 + 1 * (y 1).val = (z 1).val
      have hy : (y 1).val < 1 := (y 1).isLt
      have hz : (z 1).val < 1 := (z 1).isLt
      omega
  · funext y
    show V c main_arg5 (((cfg1.win 3).blk t).view.emb y) = V c main_arg5 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 64 + 1 * (y 1).val = (y 1).val; omega
  · funext y
    show V c main_v27 (((cfg1.win 4).blk t).view.emb y) = V c main_v27 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega

/-- An index of the output array is in point `t`'s block iff each coordinate is in the block's range on its axis. -/
theorem mem_block (t : Fin cfg1.N) (i : S50000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v28).slice (win1_5.rect t)).set ↔ _
  rw [View.set_slice_whole, Rect.mem_set_unit]
  exact Iff.rfl

/-- Every index of the output array lies in the block of the point `row / 2000`. -/
theorem covered (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨a00, a01, a10, a11, a20, a21, a30, a31, a40, a41, a50, a51⟩ := index_maps t
  refine ⟨t, flush1_5 t, ?_⟩
  rw [mem_block]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 64 ≤ (i 1).val ∧ (i 1).val < win1_5.index t (1 : Fin 2) * 64 + 64
    omega

/-- THE OUTPUT ARRAY after the last point is the affine layer of the arrays the launch was entered with. -/
theorem final (c : Dev nD) :
    (dat1 V c).arrAt 5 cfg1.N = affine (V c main_v16) (V c main_v26) (V c main_v4) (V c main_arg5) (V c main_v27) :=
  (dat1 V c).arrAt_eq_of_cover 5 _ (fun t _ => flushed_eq V c t) covered

end Cert.KernelIdeal.Blocks1

end
-- ==== Proof.Agg.lean ====
/-
  The two irregular host stages the program shares with its reference, each as one function.

  `neighbourSum src dst h` is, for every node, the sum over the edges that end at it of the row of `h` at the edge's
  source: the rows gathered at the source indices (a negative index counted from the end, as the host's indexing does)
  and scattered by addition, from zero, to the destination indices. `inDegree dst` is the same scatter of ones: the
  number of edges ending at each node. Nothing in the certificate opens either; both programs apply the same two stages
  to values that are shown equal.
-/
import proofs.«174957_j34333968564343_1_alg».proof.KernelIdeal
import proofs.«174957_j34333968564343_1_alg».proof.Proof.Gen.KernelIdeal
import Idealize.ShloMosaic.PureOps.Ideal

noncomputable section

namespace Cert.KernelIdeal.Agg

open Cert.KernelIdeal Cert.KernelIdeal.Gen Idealize.ShloMosaic

/-- The sum, per destination node, of the gathered source rows. -/
def neighbourSum (src dst : (⟨S600000, .i32⟩ : BufTy).Contents (Elt Ideal))
    (h : (⟨S50000x128, .f32⟩ : BufTy).Contents (Elt Ideal)) : (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- The number of edges ending at each node, as a float. -/
def inDegree (dst : (⟨S600000, .i32⟩ : BufTy).Contents (Elt Ideal)) : (⟨S50000, .f32⟩ : BufTy).Contents (Elt Ideal) :=
  Host.scatterAdd (F := Ideal) scatter_S50000_S600000x1_S600000_n_0_0_1
    (broadcastInDim S50000 ![] bcast_S_S50000 (constant (F := Ideal) S_ .f32 0x00000000#32))
    (broadcastInDim S600000x1 ![0] bcast_S600000_S600000x1_0 dst)
    (broadcastInDim S600000 ![] bcast_S_S600000 (constant (F := Ideal) S_ .f32 0x3F800000#32))

end Cert.KernelIdeal.Agg

end
-- ==== Proof.Net.lean ====
/-
  The two-layer network as one function of the seven arguments.

  With `neighbourSum` and `inDegree` the two irregular host stages, the degree as a one-column matrix and each bias as
  a one-row matrix, the hidden features are the clamped layer of the inputs and of their summed messages, and the result
  is the plain layer of the hidden features and of THEIR summed messages, both layers dividing by the same degrees.
-/
import proofs.«174957_j34333968564343_1_alg».proof.Proof.Agg
import proofs.«174957_j34333968564343_1_alg».proof.Proof.Spec

noncomputable section

namespace Cert.KernelIdeal.Net

open Cert.KernelIdeal Cert.KernelIdeal.Gen Cert.KernelIdeal.Agg Cert.Layer Idealize.ShloMosaic

/-- The in-degrees as a one-column matrix. -/
def degCol (dst : (⟨S600000, .i32⟩ : BufTy).Contents (Elt Ideal)) : Mat 50000 1 :=
  shapeCast S50000x1 (inDegree dst) shapeCasts_S50000_S50000x1

/-- The hidden layer's bias as a one-row matrix. -/
def biasRow1 (b : (⟨S128, .f32⟩ : BufTy).Contents (Elt Ideal)) : Mat 1 128 :=
  shapeCast S1x128 b shapeCasts_S128_S1x128

/-- The output layer's bias as a one-row matrix. -/
def biasRow2 (b : (⟨S64, .f32⟩ : BufTy).Contents (Elt Ideal)) : Mat 1 64 :=
  shapeCast S1x64 b shapeCasts_S64_S1x64

/-- The hidden features of every node. -/
def hiddenOf (x : Mat 50000 128) (src dst : (⟨S600000, .i32⟩ : BufTy).Contents (Elt Ideal)) (w1 : Mat 128 128)
    (b1 : (⟨S128, .f32⟩ : BufTy).Contents (Elt Ideal)) : Mat 50000 128 :=
  hidden x (neighbourSum src dst x) (degCol dst) w1 (biasRow1 b1)

/-- The network's result for every node. -/
def outOf (x : Mat 50000 128) (src dst : (⟨S600000, .i32⟩ : BufTy).Contents (Elt Ideal)) (w1 : Mat 128 128)
    (b1 : (⟨S128, .f32⟩ : BufTy).Contents (Elt Ideal)) (w2 : Mat 128 64)
    (b2 : (⟨S64, .f32⟩ : BufTy).Contents (Elt Ideal)) : Mat 50000 64 :=
  affine (hiddenOf x src dst w1 b1) (neighbourSum src dst (hiddenOf x src dst w1 b1)) (degCol dst) w2 (biasRow2 b2)

end Cert.KernelIdeal.Net

end
-- ==== Proof.KValue.lean ====
/-
  The idealized kernel's result as the network of its arguments.

  The first stretch of host operations leaves, for the first launch, the features as launched, their summed messages,
  the degree column, the first weights as launched and the first bias as a row; the launch's output array is then the
  hidden layer of those (the blocks-to-array reading of the first launch). No operation of the second stretch and no
  other window of the first launch writes that array or an argument, so the second stretch sums the messages of
  exactly those hidden features, and the second launch is entered with them, their summed messages, the same degree
  column, the second weights and the second bias as a row: its output array, which is the program's result, is the
  network of the seven arguments.
-/
import proofs.«174957_j34333968564343_1_alg».proof.Proof.Gen.KernelIdeal.Frame
import proofs.«174957_j34333968564343_1_alg».proof.Proof.KRun
import proofs.«174957_j34333968564343_1_alg».proof.Proof.Blocks0
import proofs.«174957_j34333968564343_1_alg».proof.Proof.Blocks1
import proofs.«174957_j34333968564343_1_alg».proof.Proof.Net
import Idealize.ShloMosaic.Lib.StableHlo.Run

set_option maxRecDepth 16384

noncomputable section

namespace Cert.KernelIdeal.KValue

open Cert.KernelIdeal Cert.KernelIdeal.Gen Cert.KernelIdeal.Agg Cert.KernelIdeal.Net Cert.Layer
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## What the first launch is entered with -/

theorem entry0_x (c : Dev nD) : V1 m ρ c main_arg0 = m ((c.tc : Thread nD τ).loc main_arg0) := by
  show StableHlo.after hostOps0 (W0 m ρ c) (Proc.devRef .tc main_arg0) = _
  after_results

theorem entry0_msg (c : Dev nD) : V1 m ρ c main_v14 = neighbourSum (m ((c.tc : Thread nD τ).loc main_arg1))
    (m ((c.tc : Thread nD τ).loc main_arg2)) (m ((c.tc : Thread nD τ).loc main_arg0)) := by
  show StableHlo.after hostOps0 (W0 m ρ c) (Proc.devRef .tc main_v14) = _
  after_results
  rfl

theorem entry0_deg (c : Dev nD) : V1 m ρ c main_v4 = degCol (m ((c.tc : Thread nD τ).loc main_arg2)) := by
  show StableHlo.after hostOps0 (W0 m ρ c) (Proc.devRef .tc main_v4) = _
  after_results
  rfl

theorem entry0_w (c : Dev nD) : V1 m ρ c main_arg3 = m ((c.tc : Thread nD τ).loc main_arg3) := by
  show StableHlo.after hostOps0 (W0 m ρ c) (Proc.devRef .tc main_arg3) = _
  after_results

theorem entry0_b (c : Dev nD) : V1 m ρ c main_v15 = biasRow1 (m ((c.tc : Thread nD τ).loc main_arg4)) := by
  show StableHlo.after hostOps0 (W0 m ρ c) (Proc.devRef .tc main_v15) = _
  after_results
  rfl

/-- The hidden features, from the launch memory. -/
abbrev hid (c : Dev nD) : Mat 50000 128 :=
  hiddenOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-! ## What the first launch leaves -/

/-- Its output array is the hidden features. -/
theorem exit0_h (c : Dev nD) : W2 m ρ c (Proc.devRef .tc main_v16) = hid m c := by
  refine (W2_arr m ρ c 5).trans ((Blocks0.final (V1 m ρ) c).trans ?_)
  rw [entry0_x, entry0_msg, entry0_deg, entry0_w, entry0_b]
  rfl

/-- The degree column, an input of the launch, is as it was. -/
theorem exit0_deg (c : Dev nD) : W2 m ρ c (Proc.devRef .tc main_v4) = degCol (m ((c.tc : Thread nD τ).loc main_arg2)) :=
  (W2_arr m ρ c 2).trans (((dat0 (V1 m ρ) c).arrAt_in 2 rfl _).trans ((A_eq0 (V1 m ρ) c 2).trans (entry0_deg m ρ c)))

/-- An argument no window of the launch stages is as launched. -/
theorem exit0_src (c : Dev nD) : W2 m ρ c (Proc.devRef .tc main_arg1) = m ((c.tc : Thread nD τ).loc main_arg1) := by
  refine (W2_of_ne m ρ c main_arg1 (by decide)).trans ?_
  show StableHlo.after hostOps0 (W0 m ρ c) (Proc.devRef .tc main_arg1) = _
  after_results
theorem exit0_dst (c : Dev nD) : W2 m ρ c (Proc.devRef .tc main_arg2) = m ((c.tc : Thread nD τ).loc main_arg2) := by
  refine (W2_of_ne m ρ c main_arg2 (by decide)).trans ?_
  show StableHlo.after hostOps0 (W0 m ρ c) (Proc.devRef .tc main_arg2) = _
  after_results
theorem exit0_w2 (c : Dev nD) : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  after_results
theorem exit0_b2 (c : Dev nD) : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  after_results

/-! ## What the second launch is entered with -/

theorem entry1_h (c : Dev nD) : V3 m ρ c main_v16 = hid m c := by
  show StableHlo.after hostOps1 (W2 m ρ c) (Proc.devRef .tc main_v16) = _
  after_results
  exact exit0_h m ρ c

theorem entry1_msg (c : Dev nD) : V3 m ρ c main_v26 = neighbourSum (m ((c.tc : Thread nD τ).loc main_arg1))
    (m ((c.tc : Thread nD τ).loc main_arg2)) (hid m c) := by
  show StableHlo.after hostOps1 (W2 m ρ c) (Proc.devRef .tc main_v26) = _
  after_results
  rw [exit0_h, exit0_src, exit0_dst]
  rfl

theorem entry1_deg (c : Dev nD) : V3 m ρ c main_v4 = degCol (m ((c.tc : Thread nD τ).loc main_arg2)) := by
  show StableHlo.after hostOps1 (W2 m ρ c) (Proc.devRef .tc main_v4) = _
  after_results
  exact exit0_deg m ρ c

theorem entry1_w (c : Dev nD) : V3 m ρ c main_arg5 = m ((c.tc : Thread nD τ).loc main_arg5) := by
  show StableHlo.after hostOps1 (W2 m ρ c) (Proc.devRef .tc main_arg5) = _
  after_results
  exact exit0_w2 m ρ c

theorem entry1_b (c : Dev nD) : V3 m ρ c main_v27 = biasRow2 (m ((c.tc : Thread nD τ).loc main_arg6)) := by
  show StableHlo.after hostOps1 (W2 m ρ c) (Proc.devRef .tc main_v27) = _
  after_results
  rw [exit0_b2]
  rfl

/-! ## The result -/

/-- The second launch's output array is the network of the arguments. -/
theorem result (c : Dev nD) : (dat1 (V3 m ρ) c).arrAt 5 cfg1.N
    = outOf (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := by
  refine (Blocks1.final (V3 m ρ) c).trans ?_
  rw [entry1_h, entry1_msg, entry1_deg, entry1_w, entry1_b]
  rfl

/-- Every weakly fair execution of the idealized kernel's program terminates, nothing faulting, with the result buffer
    at the network of the arguments and the arguments as launched. -/
theorem run : θ_run defs (onTc (τ := τ) (main (F := Ideal))) ⟨m, fun _ => 0, ρ⟩ (fun r => ∀ c : Dev nD,
      r.2.mem ((c.tc : Thread nD τ).loc main_v28)
        = outOf (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (KRun.run m ρ)

end Cert.KernelIdeal.KValue

end
-- ==== Proof.RefValue.lean ====
/-
  The reference's result is the same network of the arguments.

  The reference computes, stage by stage on whole arrays, the in-degrees, the summed messages of the inputs, the first
  layer `((msg + x) / (deg + 1)) · w1 + b1` with the degree and the bias spread over the matrix by broadcasts, its clamp at
  zero, the summed messages of the hidden features and the second layer. Its two irregular stages are, operation for
  operation, the kernel program's `neighbourSum` and `inDegree`. Read at an entry `(r, j)`, each layer is the cell of
  row `r`, column `j`: the host's matrix product is the sum over the 128 contracted features, the host's quotient the
  extended reals' division, and the broadcasts read the degree of `r` and entry `j` of the bias.
-/
import proofs.«174957_j34333968564343_1_alg».proof.Proof.Gen.ReferenceIdeal.Read
import proofs.«174957_j34333968564343_1_alg».proof.Proof.Net
import proofs.«174957_j34333968564343_1_alg».proof.Proof.LibColumns
import Idealize.ShloMosaic.Lib.ValueLayout

noncomputable section

open scoped BigOperators

namespace Cert.ReferenceIdeal.RefValue

open Cert.ReferenceIdeal Cert.ReferenceIdeal.Read Cert.Layer
open Cert.KernelIdeal.Agg Cert.KernelIdeal.Net
open Idealize.ShloMosaic Idealize.ShloMosaic.ValueIdx

/-! ## The shared stages -/

/-- The reference's degree stage is the kernel program's. -/
theorem degree_eq (x2 : (⟨S600000, .i32⟩ : BufTy).Contents (Elt Ideal)) :
    val_main_v3 (F := Ideal) x2 = inDegree x2 := by
  unfold val_main_v3 val_main_v1 val_main_v2 val_main_v0 val_main_cst val_main_cst_0 inDegree
  rfl

/-- The reference's first message stage is the kernel program's. -/
theorem messages_eq (x0 : (⟨S50000x128, .f32⟩ : BufTy).Contents (Elt Ideal)) (x1 x2 : (⟨S600000, .i32⟩ : BufTy).Contents (Elt Ideal)) :
    val_main_v13 (F := Ideal) x0 x1 x2 = neighbourSum x1 x2 x0 := by
  unfold val_main_v13 val_main_v11 val_main_v12 val_main_v10 val_main_v9 val_main_v8 val_main_v7 val_main_v6 val_main_v5
    val_main_v4 val_main_c val_main_c_1 val_main_cst_2 neighbourSum
  rfl

/-- The reference's second message stage is the kernel program's, applied to the reference's hidden features. -/
theorem messages2_eq (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal)) :
    val_main_v34 (F := Ideal) x0 x1 x2 x3 x4 = neighbourSum x1 x2 (val_main_v24 (F := Ideal) x0 x1 x2 x3 x4) := by
  unfold val_main_v34 val_main_v32 val_main_v33 val_main_v31 val_main_v30 val_main_v29 val_main_v28 val_main_v27 val_main_v26
    val_main_v25 val_main_c_4 val_main_c_5 val_main_cst_6 neighbourSum
  rfl

/-! ## Indices -/

theorem lrow (r : Fin 50000) (j k : Fin 128) : lidx_main_v20 (ix2 r j) k = ix2 r k :=
  funext fun a => Fin.ext (by match a with | ⟨0, _⟩ => rfl | ⟨1, _⟩ => rfl)
theorem rcol (r : Fin 50000) (j k : Fin 128) : ridx_main_v20 (ix2 r j) k = ix2 k j :=
  funext fun a => Fin.ext (by match a with | ⟨0, _⟩ => rfl | ⟨1, _⟩ => rfl)
theorem lrow2 (r : Fin 50000) (j : Fin 64) (k : Fin 128) : lidx_main_v41 (ix2 r j) k = ix2 r k :=
  funext fun a => Fin.ext (by match a with | ⟨0, _⟩ => rfl | ⟨1, _⟩ => rfl)
theorem rcol2 (r : Fin 50000) (j : Fin 64) (k : Fin 128) : ridx_main_v41 (ix2 r j) k = ix2 k j :=
  funext fun a => Fin.ext (by match a with | ⟨0, _⟩ => rfl | ⟨1, _⟩ => rfl)
theorem degIdx (r : Fin 50000) (k : Fin 128) : idx_main_v17 (idx_main_v18 (ix2 r k)) = ix1 r :=
  funext fun a => Fin.ext (by match a with | ⟨0, _⟩ => rfl)
theorem degIdx2 (r : Fin 50000) (k : Fin 128) : idx_main_v38 (idx_main_v39 (ix2 r k)) = ix1 r :=
  funext fun a => Fin.ext (by match a with | ⟨0, _⟩ => rfl)
theorem biasIdx (r : Fin 50000) (j : Fin 128) : idx_main_v21 (idx_main_v22 (ix2 r j)) = ix1 j :=
  funext fun a => Fin.ext (by match a with | ⟨0, _⟩ => rfl)
theorem biasIdx2 (r : Fin 50000) (j : Fin 64) : idx_main_v42 (idx_main_v43 (ix2 r j)) = ix1 j :=
  funext fun a => Fin.ext (by match a with | ⟨0, _⟩ => rfl)

/-! ## The degree and the bias as the kernel stages them -/

theorem degCol_apply (x2 : (⟨S600000, .i32⟩ : BufTy).Contents (Elt Ideal)) (r : Fin 50000) :
    degCol x2 (ix2 r 0) = inDegree x2 (ix1 r) :=
  Cert.LibColumns.shapeCast_vec_col _ _ r
theorem biasRow1_apply (x4 : (⟨S128, .f32⟩ : BufTy).Contents (Elt Ideal)) (j : Fin 128) :
    biasRow1 x4 (ix2 0 j) = x4 (ix1 j) :=
  shapeCast_a_1a_apply _ _ 0 j
theorem biasRow2_apply (x6 : (⟨S64, .f32⟩ : BufTy).Contents (Elt Ideal)) (j : Fin 64) :
    biasRow2 x6 (ix2 0 j) = x6 (ix1 j) :=
  shapeCast_a_1a_apply _ _ 0 j

/-! ## The two layers -/

/-- The reference's hidden features are the network's. -/
theorem hidden_eq (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal)) :
    val_main_v24 (F := Ideal) x0 x1 x2 x3 x4 = hiddenOf x0 x1 x2 x3 x4 := by
  funext i
  obtain ⟨r, j, rfl⟩ : ∃ (r : Fin 50000) (j : Fin 128), i = ix2 r j := ⟨i 0, i 1, eq_ix2 i⟩
  unfold hiddenOf
  rw [hidden_ix2, degCol_apply, biasRow1_apply, val_main_v24_apply, val_main_v23_apply, val_main_v20_apply,
    val_main_v22_apply, val_main_v21_apply, biasIdx]
  refine congrArg₂ max (congrArg₂ (· + ·) (Finset.sum_congr rfl fun k _ => ?_) rfl) rfl
  rw [lrow, rcol, val_main_v19_apply, val_main_v14_apply, val_main_v18_apply, val_main_v17_apply, val_main_v16_apply,
    degIdx, messages_eq, degree_eq]
  rfl

/-- The reference's result is the network's. -/
theorem out_eq (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal)) :
    val_main_v44 (F := Ideal) x0 x1 x2 x3 x4 x5 x6 = outOf x0 x1 x2 x3 x4 x5 x6 := by
  funext i
  obtain ⟨r, j, rfl⟩ : ∃ (r : Fin 50000) (j : Fin 64), i = ix2 r j := ⟨i 0, i 1, eq_ix2 i⟩
  unfold outOf
  rw [affine_ix2, degCol_apply, biasRow2_apply, val_main_v44_apply, val_main_v41_apply,
    val_main_v43_apply, val_main_v42_apply, biasIdx2]
  refine congrArg₂ (· + ·) (Finset.sum_congr rfl fun k _ => ?_) rfl
  rw [lrow2, rcol2, val_main_v40_apply, val_main_v35_apply, val_main_v39_apply, val_main_v38_apply, val_main_v37_apply,
    degIdx2, messages2_eq, degree_eq, hidden_eq]
  rfl

/-- The reference's run ends with its result buffer at the network of its launch arguments. -/
theorem result_eq (m : (ℓ : Loc nD τ sig) → Buf (Elt Ideal) ℓ) (c : Dev nD) :
    Cert.ReferenceIdeal.Value.res_main_v44 m c
      = outOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v44_eq m c).trans (out_eq _ _ _ _ _ _ _)

end Cert.ReferenceIdeal.RefValue

end
-- ==== Proof.lean ====
/-
  A two-layer graph network — per layer, every node's features plus the sum of its in-neighbours' features, divided
  by its in-degree plus one, times a weight matrix, plus a bias; the first layer clamped at zero — computed by a kernel
  program (host gather / scatter-add for the neighbour sums, one fused launch per layer over blocks of 2000 nodes with the
  matrix product on the matrix unit in a narrower float format) against the plain array program.

  Read on the extended reals the two are one function of the seven arguments. The neighbour sums and the in-degrees
  are the same host stages in both programs and are never opened. Each launch's output array is read block by block as the
  layer of the arrays it is entered with (the blocks tile the rows; an entry depends only on its own row), the contents at
  each boundary of the kernel program are followed from the launch memory through the host stretches and the launches, and
  the reference's stages are read at an entry: both sides are, entry by entry,

      Σ_k ((msg (r, k) + h (r, k)) / (deg r + 1)) · w (k, j) + b j

  with the same summation index, the same order of the two addends and the same two float words, so no law of the
  extended reals beyond the definitions is used and the finiteness of the inputs is never opened.

  The three frames are the generated ones (the reference's is its generated run with the result dropped); the
  idealization rewrote nothing, so it preserves the kernel trivially.
-/
import proofs.«174957_j34333968564343_1_alg».proof.Defs
import proofs.«174957_j34333968564343_1_alg».proof.Proof.Gen.Kernel
import proofs.«174957_j34333968564343_1_alg».proof.Proof.Gen.Kernel.Frame
import proofs.«174957_j34333968564343_1_alg».proof.Proof.Gen.KernelIdeal
import proofs.«174957_j34333968564343_1_alg».proof.Proof.Gen.KernelIdeal.Frame
import proofs.«174957_j34333968564343_1_alg».proof.Proof.Gen.ReferenceIdeal
import proofs.«174957_j34333968564343_1_alg».proof.Proof.Gen.Pre_finite_inputs
import proofs.«174957_j34333968564343_1_alg».proof.Proof.Gen.ReferenceIdeal.Run
import proofs.«174957_j34333968564343_1_alg».proof.Proof.Gen.ReferenceIdeal.Read
import proofs.«174957_j34333968564343_1_alg».proof.Proof.KValue
import proofs.«174957_j34333968564343_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with their result buffers at the network of the arguments, which agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.RefValue.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
